-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : FVec F S128x128 .f32) (main_arg2 : FVec F S128 .f32) (main_arg3 : IVec S600000 32) (main_arg4 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S2000x128 : Shape := ⟨2, ![2000, 128]⟩

abbrev nBuf : Space → Nat
  | .hbm => 21
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S600000, .i32⟩
  | .hbm, ⟨4, _⟩ => ⟨S600000, .i32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x128, .f32⟩
  | .hbm, ⟨14, _⟩ => ⟨S_, .f32⟩
  | .hbm, ⟨15, _⟩ => ⟨S50000x128, .f32⟩
  | .hbm, ⟨16, _⟩ => ⟨S600000x1, .i32⟩
  | .hbm, ⟨17, _⟩ => ⟨S50000x128, .f32⟩
  | .hbm, ⟨18, _⟩ => ⟨S128x128, .f32⟩
  | .hbm, ⟨19, _⟩ => ⟨S1x128, .f32⟩
  | .hbm, ⟨20, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S600000, .i32⟩
  | .hbm, ⟨4, _⟩ => ⟨S600000, .i32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x128, .f32⟩
  | .hbm, ⟨14, _⟩ => ⟨S_, .f32⟩
  | .hbm, ⟨15, _⟩ => ⟨S50000x128, .f32⟩
  | .hbm, ⟨16, _⟩ => ⟨S600000x1, .i32⟩
  | .hbm, ⟨17, _⟩ => ⟨S50000x128, .f32⟩
  | .hbm, ⟨18, _⟩ => ⟨S128x128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/-
  One dense layer with a tanh activation, over the extended reals.

  For a matrix `a` of 50000 rows and 128 columns, a square matrix `w` of side 128 and a vector `b` of 128
  entries, entry (r, c) of the layer's result is

      tanh ( Σ_{k < 128}  a[r, k] · w[k, c]  +  b[c] ).

  Row r of the result depends on row r of `a` only, on all of `w`, and on entry c of `b`: this is what lets the
  rows be computed in independent blocks. Both programs of this certificate compute exactly this function of the
  same three arrays, so no algebraic law of the extended reals is needed beyond reading each side entry by entry.
-/
import Idealize.ShloMosaic.PureOps.Ideal
import Idealize.ShloMosaic.Lib.ValueIdx

noncomputable section

namespace Cert.DenseTanh

open Idealize.ShloMosaic Idealize.ShloMosaic.ValueIdx

/-- The node-by-feature matrices: 50000 rows of 128 entries. -/
abbrev Rows : Shape := ⟨2, ![50000, 128]⟩
/-- The square weight matrix. -/
abbrev Square : Shape := ⟨2, ![128, 128]⟩
/-- One row of 128 entries as a vector. -/
abbrev Lane : Shape := ⟨1, ![128]⟩

/-- Entry (r, c) of the layer: the inner product of row r of `a` with column c of `w`, plus `b` at c, under tanh. -/
def layerAt (a : Rows.Idx → EReal) (w : Square.Idx → EReal) (b : Lane.Idx → EReal) (r : Fin 50000) (c : Fin 128) : EReal :=
  Ideal.tanh ((∑ k : Fin 128, a (ix2 r k) * w (ix2 k c)) + b (ix1 c))

/-- The layer as one function of the three arrays, entry by entry. -/
def layer (a : Rows.Idx → EReal) (w : Square.Idx → EReal) (b : Lane.Idx → EReal) : Rows.Idx → EReal :=
  fun i => layerAt a w b (i 0) (i 1)

end Cert.DenseTanh

end
-- ==== Proof.KernelBlock.lean ====
/-
  What the kernel body computes on one block, read at an entry.

  The body loads a block of 2000 rows of the aggregated features, the whole 128 by 128 matrix of transposed weights
  and the bias as one row of 128 entries; it narrows the two matrices to a shorter float format (the identity on
  extended reals), multiplies them on the matrix unit into a zero accumulator, adds the bias row broadcast down the
  2000 rows, and applies tanh. At entry (p, q) of the block this is

      tanh ( Σ_{k < 128} block[p, k] · weights[k, q]  +  bias[0, q] ):

  the matrix unit's sum over its one contraction axis re-indexed by that axis's coordinate, the zero accumulator
  dropped, the broadcast read at the row's only entry in that column.
-/
import proofs.«132281_j15358803050718_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The left factor the matrix product reads at output entry (p, q) lies in row p … -/
theorem left_row (j : S2000x128.Idx) (u : dot_S2000x128_S128x128_S2000x128_1_0_0_1_n_n.contr.Idx) :
    (dot_S2000x128_S128x128_S2000x128_1_0_0_1_n_n.lhsIdx j u 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … at the contraction coordinate, -/
theorem left_col (j : S2000x128.Idx) (u : dot_S2000x128_S128x128_S2000x128_1_0_0_1_n_n.contr.Idx) :
    (dot_S2000x128_S128x128_S2000x128_1_0_0_1_n_n.lhsIdx j u 1).val = (u ⟨0, by decide⟩).val :=
  dot_S2000x128_S128x128_S2000x128_1_0_0_1_n_n.lhsIdx_val_of_single rfl j u
/-- and the right factor in the row of the contraction coordinate … -/
theorem right_row (j : S2000x128.Idx) (u : dot_S2000x128_S128x128_S2000x128_1_0_0_1_n_n.contr.Idx) :
    (dot_S2000x128_S128x128_S2000x128_1_0_0_1_n_n.rhsIdx j u 0).val = (u ⟨0, by decide⟩).val :=
  dot_S2000x128_S128x128_S2000x128_1_0_0_1_n_n.rhsIdx_val_of_single rfl j u
/-- … in column q. -/
theorem right_col (j : S2000x128.Idx) (u : dot_S2000x128_S128x128_S2000x128_1_0_0_1_n_n.contr.Idx) :
    (dot_S2000x128_S128x128_S2000x128_1_0_0_1_n_n.rhsIdx j u 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The block's matrix product into a zero accumulator, at entry (p, q): the sum over k of left[p, k] · right[k, q]. -/
theorem product_entry {φ₁ φ₂ : FTy} (l : FVec Ideal S2000x128 φ₁) (r : FVec Ideal S128x128 φ₂) (p : Fin 2000) (q : Fin 128) :
    matmul (F := Ideal) dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact left_row _ _
      | ⟨1, _⟩ => exact (left_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (right_row _ _).trans hk
      | ⟨1, _⟩ => exact right_col _ _)
  rw [el, er]

/-- The bias row broadcast down the block's rows, at entry (p, q): the row's entry in column q. -/
theorem bias_entry (x2 : Vec Ideal S1x128 .f32) (p : Fin 2000) (q : Fin 128) :
    broadcastTo S2000x128 (shapeCast S1x128 x2 shapeCasts_S1x128_S1x128) broadcasts_S1x128_S2000x128 (ix2 p q) = x2 (ix2 0 q) := by
  rw [shapeCast_self]
  exact broadcastTo_apply x2 broadcasts_S1x128_S2000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- THE BODY'S RESULT at entry (p, q) of its block. -/
theorem result_entry (x0 : Vec Ideal S2000x128 .f32) (x1 : Vec Ideal S128x128 .f32) (x2 : Vec Ideal S1x128 .f32)
    (p : Fin 2000) (q : Fin 128) :
    k0_pay1 (F := Ideal) x0 x1 x2 (ix2 p q)
      = Ideal.tanh ((∑ k : Fin 128, x0 (ix2 p k) * x1 (ix2 k q)) + x2 (ix2 0 q)) := by
  unfold k0_pay1
  refine congrArg Ideal.tanh (congrArg₂ (· + ·) ((product_entry _ _ p q).trans ?_) (bias_entry x2 p q))
  refine Finset.sum_congr rfl fun k _ => ?_
  rw [truncf_apply, truncf_apply, shapeCast_self, shapeCast_self]

end Cert.KernelIdeal.Block

end
-- ==== Proof.KernelInputs.lean ====
/-
  What the region finds in its three input arrays.

  Before the kernel is launched the host computes, from the five arguments: the aggregated features (each source
  index, wrapped into range if negative, gathers a row of the feature matrix; the rows are then added into the rows
  their destination indices name, starting from zero); the transpose of the weight matrix; and the bias vector viewed
  as a matrix of one row. These three arrays are what the kernel's three input windows stage. Each is read off the
  host operations in order: an operation's result at its own buffer is its function of its operands' buffers, and
  every other buffer is left as it was.
-/
import proofs.«132281_j15358803050718_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Inputs

open Cert.KernelIdeal Cert.KernelIdeal.Gen Idealize.ShloMosaic Idealize.ShloMosaic.TcCoe Idealize.SL.Sem
open Idealize.ShloMosaic.ValueIdx

/-- The aggregated features as a function of the feature matrix and the two index vectors: a source index below
    zero is moved up by the number of rows; each (wrapped) source index gathers one row of 128 features; each gathered
    row is added into the row of a zero matrix that its destination index names. -/
def aggregated (x0 : (⟨S50000x128, .f32⟩ : BufTy).Contents (Elt Ideal)) (x3 x4 : (⟨S600000, .i32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 x4)
    (Host.gather gather_S50000x128_S600000x1_S600000x128_1_0_n_n_0_1_1128 x0
      (broadcastInDim S600000x1 ![0] bcast_S600000_S600000x1_0
        (select (cmpi .slt x3 (broadcastInDim S600000 ![] bcast_S_S600000 (constantI S_ 32 0#32)))
          (addi x3 (broadcastInDim S600000 ![] bcast_S_S600000 (constantI S_ 32 50000#32))) x3)))

variable (m : (ℓ : Loc nD τ sig) → Buf (Elt Ideal) ℓ)

/-- The first window's array holds the aggregated features of the arguments. -/
theorem features_at_entry (c : Dev nD) :
    V m c main_v9 = aggregated (m ((c : Thread nD τ).loc main_arg0)) (m ((c : Thread nD τ).loc main_arg3)) (m ((c : Thread nD τ).loc main_arg4)) := by
  dsimp only [V, hostOps0]
  after_results <;> rfl

/-- The second window's array holds the transposed weights. -/
theorem weights_at_entry (c : Dev nD) :
    V m c main_v10 = transpose S128x128 [1, 0] (m ((c : Thread nD τ).loc main_arg1)) transposes_S128x128_S128x128_1_0 := by
  dsimp only [V, hostOps0]
  after_results <;> rfl

/-- The third window's array holds the bias vector as one row. -/
theorem bias_at_entry (c : Dev nD) :
    V m c main_v11 = shapeCast S1x128 (m ((c : Thread nD τ).loc main_arg2)) shapeCasts_S128_S1x128 := by
  dsimp only [V, hostOps0]
  after_results <;> rfl

/-- Read at an entry: the one row's entry in column u is the bias vector at u (a one-row view keeps the row-major
    position of every entry). -/
theorem bias_row_entry (c : Dev nD) (u : Fin 128) :
    V m c main_v11 (ix2 0 u) = m ((c : Thread nD τ).loc main_arg2) (ix1 u) := by
  rw [bias_at_entry]
  refine shapeCast_apply _ _ _ (ix1 u) ?_
  rw [Shape.rowMajor_val_one, Shape.rowMajor_val_two]
  show u.val = 0 * 128 + u.val
  omega

end Cert.KernelIdeal.Inputs

end
-- ==== Proof.KernelWindows.lean ====
/-
  Where each window's block sits in its array, at each of the 25 grid points.

  Point t stages rows 2000·t … 2000·t + 1999 of the feature array (all 128 columns), the whole weight matrix, the
  whole one-row bias, and writes back rows 2000·t … 2000·t + 1999 of the result array. Each fact is stated for an
  ARBITRARY array read through the window: entry (p, k) of the block is entry (2000·t + p, k) of the array for the
  two row-blocked windows, and entry (k, u) itself for the two windows that never move. Also: the 25 result blocks
  cover the 50000 rows, row r lying in block r / 2000.
-/
import proofs.«132281_j15358803050718_1_alg».proof.Proof.Gen.KernelIdeal.Frame
import Idealize.ShloMosaic.Lib.Pipeline.Value
import Idealize.ShloMosaic.Lib.ValueIdx

noncomputable section

namespace Cert.KernelIdeal.Windows

open Cert.KernelIdeal Cert.KernelIdeal.Gen Idealize.ShloMosaic Idealize.ShloMosaic.TcCoe Idealize.SL.Sem
open Idealize.ShloMosaic.ValueIdx

/-- The block indices of the four windows at each of the 25 points, decided: the features' and the result's row-block
    index is the point itself and their column-block index 0; the weights and the bias stay at block (0, 0). -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- There are 25 points. -/
theorem points : cfg0.N = 25 := rfl

/-- Row p of block t is a row of the array: 2000·t + p is below 50000. -/
theorem row_lt (t : Fin cfg0.N) (p : Fin 2000) : t.val * 2000 + p.val < 50000 := by
  have ht : t.val < 25 := t.isLt
  have hp : p.val < 2000 := p.isLt
  omega

/-- Row p of block t, as a row of the array. -/
abbrev row (t : Fin cfg0.N) (p : Fin 2000) : Fin 50000 := ⟨t.val * 2000 + p.val, row_lt t p⟩

/-- Entry (p, k) of point t's block of any array read through the features' window is entry (2000·t + p, k). -/
theorem features_block (A : S50000x128.Idx → EReal) (t : Fin cfg0.N) (p : Fin 2000) (k : Fin 128) :
    ((cfg0.win 0).blk t).view.read (Elt Ideal) A (ix2 p k) = A (ix2 (row t p) k) := by
  obtain ⟨e0, e1, -⟩ := block_indices t
  rw [View.read_apply]
  refine (cast_eq _ _).trans (congrArg A (funext fun a => Fin.ext ?_))
  match a with
  | ⟨0, _⟩ =>
    show win0_0.index t (0 : Fin 2) * 2000 + 1 * p.val = t.val * 2000 + p.val
    omega
  | ⟨1, _⟩ =>
    show win0_0.index t (1 : Fin 2) * 128 + 1 * k.val = k.val
    omega

/-- The weights' window always stages the whole matrix. -/
theorem weights_block (W : S128x128.Idx → EReal) (t : Fin cfg0.N) (k u : Fin 128) :
    ((cfg0.win 1).blk t).view.read (Elt Ideal) W (ix2 k u) = W (ix2 k u) := by
  obtain ⟨-, -, e2, e3, -⟩ := block_indices t
  rw [View.read_apply]
  refine (cast_eq _ _).trans (congrArg W (funext fun a => Fin.ext ?_))
  match a with
  | ⟨0, _⟩ =>
    show win0_1.index t (0 : Fin 2) * 128 + 1 * k.val = k.val
    omega
  | ⟨1, _⟩ =>
    show win0_1.index t (1 : Fin 2) * 128 + 1 * u.val = u.val
    omega

/-- The bias' window always stages the whole row. -/
theorem bias_block (B : S1x128.Idx → EReal) (t : Fin cfg0.N) (u : Fin 128) :
    ((cfg0.win 2).blk t).view.read (Elt Ideal) B (ix2 0 u) = B (ix2 0 u) := by
  obtain ⟨-, -, -, -, e4, e5, -⟩ := block_indices t
  rw [View.read_apply]
  refine (cast_eq _ _).trans (congrArg B (funext fun a => Fin.ext ?_))
  match a with
  | ⟨0, _⟩ =>
    show win0_2.index t (0 : Fin 2) * 1 + 1 * 0 = 0
    omega
  | ⟨1, _⟩ =>
    show win0_2.index t (1 : Fin 2) * 128 + 1 * u.val = u.val
    omega

/-- Entry (p, q) of point t's block of any array read through the result's window is entry (2000·t + p, q). -/
theorem result_block (G : S50000x128.Idx → EReal) (t : Fin cfg0.N) (p : Fin 2000) (q : Fin 128) :
    ((cfg0.win 3).blk t).view.read (Elt Ideal) G (ix2 p q) = G (ix2 (row t p) q) := by
  obtain ⟨-, -, -, -, -, -, e6, e7⟩ := block_indices t
  rw [View.read_apply]
  refine (cast_eq _ _).trans (congrArg G (funext fun a => Fin.ext ?_))
  match a with
  | ⟨0, _⟩ =>
    show win0_3.index t (0 : Fin 2) * 2000 + 1 * p.val = t.val * 2000 + p.val
    omega
  | ⟨1, _⟩ =>
    show win0_3.index t (1 : Fin 2) * 128 + 1 * q.val = q.val
    omega

/-- The result's blocks are never cut short: what a point writes back is what the body left, entry for entry. -/
theorem result_uncut (X : S2000x128.Idx → EReal) (t : Fin cfg0.N) (p : Fin 2000) (q : Fin 128) :
    (cfg0.win 3).cut (grid0.coords t) X (ix2 p q) = X (ix2 p q) := rfl

/-- An index of the result array is in point t's block iff each coordinate is in the block's range on its axis. -/
theorem mem_block (t : Fin cfg0.N) (i : S50000x128.Idx) :
    i ∈ ((cfg0.win 3).blk t).view.set
      ↔ ∀ a : Fin 2, win0_3.index t a * S2000x128.size a ≤ (i a).val
          ∧ (i a).val < win0_3.index t a * S2000x128.size a + S2000x128.size a := by
  show i ∈ ((View.whole main_v12).slice (win0_3.rect t)).set ↔ _
  rw [View.set_slice_whole, Rect.mem_set_unit]
  exact Iff.rfl

/-- Every entry of the result array is in the block of the point its row's quotient by 2000 names. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 2000 < cfg0.N := by rw [points]; omega
  obtain ⟨-, -, -, -, -, -, e6, e7⟩ := block_indices ⟨(i 0).val / 2000, ht⟩
  refine ⟨⟨(i 0).val / 2000, ht⟩, flush0_3 _, ?_⟩
  rw [mem_block]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    omega

end Cert.KernelIdeal.Windows

end
-- ==== Proof.KernelArray.lean ====
/-
  From the kernel's blocks to its whole result array.

  The grid has 25 points. Point t stages rows 2000·t … 2000·t + 1999 of the aggregated features, all of the transposed
  weights and the one bias row, and writes back rows 2000·t … 2000·t + 1999 of the result. Since row r of the dense
  tanh layer depends on row r of its first operand only, what point t writes back is exactly its block of the layer of
  the WHOLE arrays; and the 25 blocks of 2000 rows tile the 50000 rows. So after the run the result array is the layer
  of the aggregated features, the transposed weights and the bias.
-/
import proofs.«132281_j15358803050718_1_alg».proof.Proof.Gen.KernelIdeal.Value
import proofs.«132281_j15358803050718_1_alg».proof.Proof.Layer
import proofs.«132281_j15358803050718_1_alg».proof.Proof.KernelBlock
import proofs.«132281_j15358803050718_1_alg».proof.Proof.KernelInputs
import proofs.«132281_j15358803050718_1_alg».proof.Proof.KernelWindows

noncomputable section

namespace Cert.KernelIdeal.Array

open Cert.KernelIdeal Cert.KernelIdeal.Gen Idealize.ShloMosaic Idealize.ShloMosaic.TcCoe Idealize.SL.Sem
open Idealize.ShloMosaic.Pipeline (Dat)
open Idealize.ShloMosaic.ValueIdx Cert.DenseTanh

/-- The body reads and writes its staging buffers whole: through the rectangle at offsets (0, 0). -/
theorem zero_offsets : (![0, 0] : Fin 2 → Nat) = fun _ => 0 := funext fun a => by fin_cases a <;> rfl

/-- One entry of a block, against one entry of the layer of whole arrays: if row p of the staged feature block is row r
    of the feature array, the staged weights are the weight array and the staged bias row is the bias vector, then the
    body's result at (p, q) is the layer at (r, q). -/
theorem block_entry (x0 : Vec Ideal S2000x128 .f32) (x1 : Vec Ideal S128x128 .f32) (x2 : Vec Ideal S1x128 .f32)
    (a : Rows.Idx → EReal) (w : Square.Idx → EReal) (b : Lane.Idx → EReal)
    (p : Fin 2000) (q : Fin 128) (r : Fin 50000)
    (h0 : ∀ k : Fin 128, x0 (ix2 p k) = a (ix2 r k))
    (h1 : ∀ k u : Fin 128, x1 (ix2 k u) = w (ix2 k u))
    (h2 : ∀ u : Fin 128, x2 (ix2 0 u) = b (ix1 u)) :
    k0_pay1 (F := Ideal) x0 x1 x2 (ix2 p q) = layer a w b (ix2 r q) := by
  rw [Block.result_entry]
  show _ = layerAt a w b r q
  unfold layerAt
  rw [h2 q]
  exact congrArg Ideal.tanh (congrArg (· + b (ix1 q)) (Finset.sum_congr rfl fun k _ => by rw [h0 k, h1 k q]))

variable (m : (ℓ : Loc nD τ sig) → Buf (Elt Ideal) ℓ) (ρ : Dev nD → PrngReg)

/-- The body's result on point t's three staged blocks, at entry (p, q), is the layer of the three arrays the region
    finds, at entry (2000·t + p, q). -/
theorem point_entry (c : Dev nD) (t : Fin cfg0.N) (p : Fin 2000) (q : Fin 128) :
    k0_pay1 (F := Ideal) (iblk m c 0 t) (iblk m c 1 t) (iblk m c 2 t) (ix2 p q)
      = layer (V m c main_v9) (V m c main_v10) (m ((c : Thread nD τ).loc main_arg2)) (ix2 (Windows.row t p) q) :=
  block_entry _ _ _ _ _ _ p q (Windows.row t p)
    (fun k => Windows.features_block (V m c main_v9) t p k)
    (fun k u => Windows.weights_block (V m c main_v10) t k u)
    (fun u => (Windows.bias_block (V m c main_v11) t u).trans (Inputs.bias_row_entry m c u))

/-- WHAT POINT t WRITES BACK is its block of the layer of the three arrays the region finds. -/
theorem flushed_eq (c : Dev nD) (t : Fin cfg0.N) :
    (dats m 0 c).flushed 3 t
      = ((cfg0.win 3).blk t).view.read (Elt Ideal)
          (layer (V m c main_v9) (V m c main_v10) (m ((c : Thread nD τ).loc main_arg2))) := by
  rw [Value.flushed3]
  unfold out0_3
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  rw [Windows.result_block, Windows.result_uncut]
  exact point_entry m c t p q

/-- THE RESULT ARRAY after the run: the layer of the aggregated features, the transposed weights and the bias. -/
theorem final (c : Dev nD) :
    (dats m 0 c).arrAt 3 cfg0.N
      = layer (Inputs.aggregated (m ((c : Thread nD τ).loc main_arg0)) (m ((c : Thread nD τ).loc main_arg3)) (m ((c : Thread nD τ).loc main_arg4)))
          (transpose S128x128 [1, 0] (m ((c : Thread nD τ).loc main_arg1)) transposes_S128x128_S128x128_1_0)
          (m ((c : Thread nD τ).loc main_arg2)) := by
  rw [← Inputs.features_at_entry m c, ← Inputs.weights_at_entry m c]
  exact (dats m 0 c).arrAt_eq_of_cover 3 _ (fun t _ => flushed_eq m c t) Windows.covered

/-- The kernel's run with its result named: every weakly fair execution terminates with the result array at the
    layer and the five arguments unchanged. -/
theorem run : θ_run defs (onTc (τ := τ) (main (F := Ideal))) ⟨m, fun _ => 0, ρ⟩ fun r => ∀ c : Dev nD,
      r.2.mem ((c : Thread nD τ).loc main_v12)
        = layer (Inputs.aggregated (m ((c : Thread nD τ).loc main_arg0)) (m ((c : Thread nD τ).loc main_arg3)) (m ((c : Thread nD τ).loc main_arg4)))
            (transpose S128x128 [1, 0] (m ((c : Thread nD τ).loc main_arg1)) transposes_S128x128_S128x128_1_0)
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Array

end
-- ==== Proof.RefLayer.lean ====
/-
  The reference program computes the dense tanh layer.

  Its last five operations are a matrix product contracted over the 128 columns of the left operand and the 128
  rows of the right one, a bias vector broadcast first to one row and then down all 50000 rows, an entrywise sum and
  an entrywise tanh. Read at an entry (r, c) these are: the sum over k of left[r, k] · right[k, c]; the bias at c;
  their sum; its tanh. That is the layer of the left operand (the aggregated features, whatever the gather and the
  scatter-add before it produced), the right operand (the transposed weights) and the bias.
-/
import proofs.«132281_j15358803050718_1_alg».proof.Proof.Gen.ReferenceIdeal.Read
import proofs.«132281_j15358803050718_1_alg».proof.Proof.Layer

noncomputable section

namespace Cert.ReferenceIdeal.RefValue

open Cert.ReferenceIdeal Cert.ReferenceIdeal.Read Idealize.ShloMosaic Idealize.ShloMosaic.ValueIdx Cert.DenseTanh

/-- The left operand's entry the product reads at (r, c) and contraction index k is (r, k). -/
theorem left_entry (i : S50000x128.Idx) (k : Fin 128) : lidx_main_v11 i k = ix2 (i 0) k :=
  funext fun a => Fin.ext (by match a with | ⟨0, _⟩ => rfl | ⟨1, _⟩ => rfl)

/-- The right operand's entry is (k, c). -/
theorem right_entry (i : S50000x128.Idx) (k : Fin 128) : ridx_main_v11 i k = ix2 k (i 1) :=
  funext fun a => Fin.ext (by match a with | ⟨0, _⟩ => rfl | ⟨1, _⟩ => rfl)

/-- Through the two broadcasts, entry (r, c) of the bias matrix is the bias vector at c. -/
theorem bias_entry (i : S50000x128.Idx) : idx_main_v12 (idx_main_v13 i) = ix1 (i 1) :=
  funext fun a => Fin.ext (by match a with | ⟨0, _⟩ => rfl)

/-- The reference's result is the layer of the aggregated features, the transposed weights and the bias. -/
theorem result_eq_layer (x0 : (⟨S50000x128, .f32⟩ : BufTy).Contents (Elt Ideal)) (x1 : (⟨S128x128, .f32⟩ : BufTy).Contents (Elt Ideal))
    (x2 : (⟨S128, .f32⟩ : BufTy).Contents (Elt Ideal)) (x3 x4 : (⟨S600000, .i32⟩ : BufTy).Contents (Elt Ideal)) :
    val_main_v15 (F := Ideal) x0 x1 x2 x3 x4
      = layer (val_main_v9 (F := Ideal) x0 x3 x4) (val_main_v10 (F := Ideal) x1) x2 := by
  funext i
  rw [val_main_v15_apply, val_main_v14_apply, val_main_v11_apply, val_main_v13_apply, val_main_v12_apply, bias_entry]
  simp only [left_entry, right_entry, Ideal.hostUnary_tanh_def, Ideal.addf_def]
  rfl

end Cert.ReferenceIdeal.RefValue

end
-- ==== Proof.lean ====
/-
  A graph-convolution layer: neighbour aggregation on the host, then a dense layer with tanh.

  Both programs first aggregate: every edge gathers the feature row of its source node (a negative source index
  is wrapped by the number of nodes) and adds it into the row of its destination node, starting from zero. They
  then apply the same dense layer to the aggregated features a, the transpose w of the weight matrix and the bias b:

      result[r, c] = tanh ( Σ_{k < 128} a[r, k] · w[k, c] + b[c] ).

  The kernel computes the layer 2000 rows at a time on the matrix unit, after narrowing a and w to a shorter float
  format, with a zero accumulator and the bias added as a broadcast row; the reference computes it with one matrix
  product over all 50000 rows and a broadcast bias. Over the extended reals a change of float format is the identity,
  the zero accumulator contributes nothing, and a row of the result depends on the same row of a only; so both
  programs compute the same entry at every index, by the same sum in the same order. No law that needs finite
  inputs is used, and the precondition is never opened.

  The aggregation itself is never read: both programs apply the same gather and the same scatter-add to the same
  arguments, and the layer is compared as a function of whatever array they produce.
-/
import proofs.«132281_j15358803050718_1_alg».proof.Defs
import proofs.«132281_j15358803050718_1_alg».proof.Proof.Gen.Kernel
import proofs.«132281_j15358803050718_1_alg».proof.Proof.Gen.Kernel.Skeleton
import proofs.«132281_j15358803050718_1_alg».proof.Proof.Gen.Kernel.Launch
import proofs.«132281_j15358803050718_1_alg».proof.Proof.Gen.Kernel.Points
import proofs.«132281_j15358803050718_1_alg».proof.Proof.Gen.Kernel.Frame
import proofs.«132281_j15358803050718_1_alg».proof.Proof.Gen.KernelIdeal
import proofs.«132281_j15358803050718_1_alg».proof.Proof.Gen.KernelIdeal.Skeleton
import proofs.«132281_j15358803050718_1_alg».proof.Proof.Gen.KernelIdeal.Launch
import proofs.«132281_j15358803050718_1_alg».proof.Proof.Gen.KernelIdeal.Points
import proofs.«132281_j15358803050718_1_alg».proof.Proof.Gen.KernelIdeal.Frame
import proofs.«132281_j15358803050718_1_alg».proof.Proof.Gen.ReferenceIdeal
import proofs.«132281_j15358803050718_1_alg».proof.Proof.Gen.Pre_finite_inputs
import proofs.«132281_j15358803050718_1_alg».proof.Proof.Gen.KernelIdeal.Value
import proofs.«132281_j15358803050718_1_alg».proof.Proof.Gen.ReferenceIdeal.Run
import proofs.«132281_j15358803050718_1_alg».proof.Proof.Gen.ReferenceIdeal.Read
import proofs.«132281_j15358803050718_1_alg».proof.Proof.KernelArray
import proofs.«132281_j15358803050718_1_alg».proof.Proof.RefLayer
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The two programs aggregate alike: the same index wrap, gather and scatter-add of the same arguments. -/
theorem same_aggregation (x0 : (⟨Cert.ReferenceIdeal.S50000x128, .f32⟩ : BufTy).Contents (Elt Ideal))
    (x3 x4 : (⟨Cert.ReferenceIdeal.S600000, .i32⟩ : BufTy).Contents (Elt Ideal)) :
    Cert.ReferenceIdeal.Read.val_main_v9 (F := Ideal) x0 x3 x4 = Cert.KernelIdeal.Inputs.aggregated x0 x3 x4 := rfl

/-- And they transpose the weights alike. -/
theorem same_transpose (x1 : (⟨Cert.ReferenceIdeal.S128x128, .f32⟩ : BufTy).Contents (Elt Ideal)) :
    Cert.ReferenceIdeal.Read.val_main_v10 (F := Ideal) x1
      = transpose Cert.KernelIdeal.S128x128 [1, 0] x1 Cert.KernelIdeal.Gen.transposes_S128x128_S128x128_1_0 := rfl

/-- Over the extended reals, from memories that agree on the five arguments, both programs end with the dense tanh
    layer of the aggregated features, the transposed weights and the bias in their result arrays. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq_layer,
    same_aggregation, same_transpose,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
